-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8x1x1 : Shape := ⟨3, ![8, 1, 1]⟩
abbrev S1024x128 : Shape := ⟨2, ![1024, 128]⟩
abbrev S1x1x1 : Shape := ⟨3, ![1, 1, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 29
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S8192x128, .bf16⟩
  | .hbm, ⟨23, _⟩ => ⟨S8192x128, .bf16⟩
  | .hbm, ⟨24, _⟩ => ⟨S8x1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1x1, .f32⟩
  | .local _ .vmem, ⟨5, _⟩ => ⟨S1x1x1, .f32⟩
  | .local _ .vmem, ⟨6, _⟩ => ⟨S1x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [0] S1024
  shapeCasts_S1024_S1x1024 : S1024.ShapeCasts S1x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1x1024_S1 : S1x1024.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v10) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S128x8192, .f32⟩
  | .hbm, ⟨23, _⟩ => ⟨S8192x8192, .f32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.PieceValue.lean ====
/-
  What each control case of the body leaves in the running row of column sums and in the output block, as compositions of the
  body's stores' values.

  The body has three conditions on the grid point (i, j): j = 0 (reset the running row to zero), i = j (a diagonal tile: add the
  corrections) and j = 7 (the last tile of the row of tiles: sum the running row into the output entry). Every store covers its
  whole buffer and every load reads a whole buffer, so a load after a store reads that store's value, and what a buffer ends
  holding is the value of the last store into it. Six combinations of the conditions occur on the 8 x 8 grid.
-/
import proofs.«176809_j16544214024588_2_alg».proof.Proof.Gen.KernelIdeal.Frame
import Idealize.ShloMosaic.Lib.Pipeline.Value
import Idealize.ShloMosaic.Lib.Tactic

set_option maxRecDepth 16384

noncomputable section

namespace Cert.KernelIdeal.PieceValue

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-buffer load after stores the last of which covered the whole buffer reads that last store's value. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- First tile of the first row of tiles (reset, diagonal): zero, plus the base column sums, plus the corrections. -/
theorem scratch_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1x1 .f32) (harg4 : arg4.IsWhole) (arg5 : Memref sig .tc .vmem S1x1024 .f32) (harg5 : arg5.IsWhole) (hc0 : cond0_0 i) (hc1 : cond0_1 i) (hc2 : ¬cond0_2 i)
    (x0 : Vec F S1024x128 .bf16) (x1 : Vec F S1024x128 .bf16)  :
    sout0_A_0 c i arg2 harg2 arg3 harg3 arg4 harg4 arg5 harg5 hc0 hc1 hc2 x0 x1 = k0_pay5 i x0 x1 (k0_pay4 x0 x1 k0_pay1) := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_cons_unit_zero (S := S1x1024) hz2]
  simp only [readCov_cons_unit_zero (S := S1x1024) _ hz2, View.readCov_unit_zero (S := S1x1024) _ hz2, View.readAt_eq_ld,
    harg2.read_unread, harg3.read_unread, harg5.read_unread, View.ld_unit_zero (S := S1024x128) hz2, View.ld_unit_zero (S := S1x1024) hz2]

/-- A middle off-diagonal tile: the running row plus the base column sums. -/
theorem scratch_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1x1 .f32) (harg4 : arg4.IsWhole) (arg5 : Memref sig .tc .vmem S1x1024 .f32) (harg5 : arg5.IsWhole) (hc0 : ¬cond0_0 i) (hc1 : ¬cond0_1 i) (hc2 : ¬cond0_2 i)
    (x0 : Vec F S1024x128 .bf16) (x1 : Vec F S1024x128 .bf16) (xs0 : Vec F S1x1024 .f32) :
    sout0_B_0 c i arg2 harg2 arg3 harg3 arg4 harg4 arg5 harg5 hc0 hc1 hc2 x0 x1 xs0 = k0_pay4 x0 x1 xs0 := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_cons_unit_zero (S := S1x1024) hz2]
  simp only [readCov_cons_unit_zero (S := S1x1024) _ hz2, View.readCov_unit_zero (S := S1x1024) _ hz2, View.readAt_eq_ld,
    harg2.read_unread, harg3.read_unread, harg5.read_unread, View.ld_unit_zero (S := S1024x128) hz2, View.ld_unit_zero (S := S1x1024) hz2]

/-- A last off-diagonal tile: the running row plus the base column sums. -/
theorem scratch_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1x1 .f32) (harg4 : arg4.IsWhole) (arg5 : Memref sig .tc .vmem S1x1024 .f32) (harg5 : arg5.IsWhole) (hc0 : ¬cond0_0 i) (hc1 : ¬cond0_1 i) (hc2 : cond0_2 i)
    (x0 : Vec F S1024x128 .bf16) (x1 : Vec F S1024x128 .bf16) (xs0 : Vec F S1x1024 .f32) :
    sout0_C_0 c i arg2 harg2 arg3 harg3 arg4 harg4 arg5 harg5 hc0 hc1 hc2 x0 x1 xs0 = k0_pay4 x0 x1 xs0 := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_cons_unit_zero (S := S1x1024) hz2]
  simp only [readCov_cons_unit_zero (S := S1x1024) _ hz2, View.readCov_unit_zero (S := S1x1024) _ hz2, View.readAt_eq_ld,
    harg2.read_unread, harg3.read_unread, harg5.read_unread, View.ld_unit_zero (S := S1024x128) hz2, View.ld_unit_zero (S := S1x1024) hz2]

/-- and the output entry is the sum of that row. -/
theorem output_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1x1 .f32) (harg4 : arg4.IsWhole) (arg5 : Memref sig .tc .vmem S1x1024 .f32) (harg5 : arg5.IsWhole) (hc0 : ¬cond0_0 i) (hc1 : ¬cond0_1 i) (hc2 : cond0_2 i)
    (x0 : Vec F S1024x128 .bf16) (x1 : Vec F S1024x128 .bf16) (xs0 : Vec F S1x1024 .f32) :
    out0_C_2 c i arg2 harg2 arg3 harg3 arg4 harg4 arg5 harg5 hc0 hc1 hc2 x0 x1 xs0 = k0_pay6 (k0_pay4 x0 x1 xs0) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_cons_unit_zero (S := S1x1x1) hz3]
  simp only [readCov_cons_unit_zero (S := S1x1024) _ hz2, View.readCov_unit_zero (S := S1x1024) _ hz2, View.readAt_eq_ld,
    harg2.read_unread, harg3.read_unread, harg5.read_unread, View.ld_unit_zero (S := S1024x128) hz2, View.ld_unit_zero (S := S1x1024) hz2]

/-- A first off-diagonal tile (reset): zero plus the base column sums. -/
theorem scratch_D (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1x1 .f32) (harg4 : arg4.IsWhole) (arg5 : Memref sig .tc .vmem S1x1024 .f32) (harg5 : arg5.IsWhole) (hc0 : cond0_0 i) (hc1 : ¬cond0_1 i) (hc2 : ¬cond0_2 i)
    (x0 : Vec F S1024x128 .bf16) (x1 : Vec F S1024x128 .bf16)  :
    sout0_D_0 c i arg2 harg2 arg3 harg3 arg4 harg4 arg5 harg5 hc0 hc1 hc2 x0 x1 = k0_pay4 x0 x1 k0_pay1 := by
  unfold sout0_D_0
  rw [View.read_writes_eq_canon _ _ _ (scover0_D_0 c i arg2 harg2 arg3 harg3 arg4 harg4 arg5 harg5 hc0 hc1 hc2 x0 x1)]
  unfold kernelRun0_D
  dsimp only
  sl_unfold_words
  rw [View.canon_cons_unit_zero (S := S1x1024) hz2]
  simp only [readCov_cons_unit_zero (S := S1x1024) _ hz2, View.readCov_unit_zero (S := S1x1024) _ hz2, View.readAt_eq_ld,
    harg2.read_unread, harg3.read_unread, harg5.read_unread, View.ld_unit_zero (S := S1024x128) hz2, View.ld_unit_zero (S := S1x1024) hz2]

/-- A middle diagonal tile: the running row plus the base column sums plus the corrections. -/
theorem scratch_E (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1x1 .f32) (harg4 : arg4.IsWhole) (arg5 : Memref sig .tc .vmem S1x1024 .f32) (harg5 : arg5.IsWhole) (hc0 : ¬cond0_0 i) (hc1 : cond0_1 i) (hc2 : ¬cond0_2 i)
    (x0 : Vec F S1024x128 .bf16) (x1 : Vec F S1024x128 .bf16) (xs0 : Vec F S1x1024 .f32) :
    sout0_E_0 c i arg2 harg2 arg3 harg3 arg4 harg4 arg5 harg5 hc0 hc1 hc2 x0 x1 xs0 = k0_pay5 i x0 x1 (k0_pay4 x0 x1 xs0) := by
  unfold sout0_E_0
  rw [View.read_writes_eq_canon _ _ _ (scover0_E_0 c i arg2 harg2 arg3 harg3 arg4 harg4 arg5 harg5 hc0 hc1 hc2 x0 x1 xs0)]
  unfold kernelRun0_E
  dsimp only
  sl_unfold_words
  rw [View.canon_cons_unit_zero (S := S1x1024) hz2]
  simp only [readCov_cons_unit_zero (S := S1x1024) _ hz2, View.readCov_unit_zero (S := S1x1024) _ hz2, View.readAt_eq_ld,
    harg2.read_unread, harg3.read_unread, harg5.read_unread, View.ld_unit_zero (S := S1024x128) hz2, View.ld_unit_zero (S := S1x1024) hz2]

/-- The last tile of the last row of tiles (diagonal): the running row plus the base column sums plus the corrections. -/
theorem scratch_F (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1x1 .f32) (harg4 : arg4.IsWhole) (arg5 : Memref sig .tc .vmem S1x1024 .f32) (harg5 : arg5.IsWhole) (hc0 : ¬cond0_0 i) (hc1 : cond0_1 i) (hc2 : cond0_2 i)
    (x0 : Vec F S1024x128 .bf16) (x1 : Vec F S1024x128 .bf16) (xs0 : Vec F S1x1024 .f32) :
    sout0_F_0 c i arg2 harg2 arg3 harg3 arg4 harg4 arg5 harg5 hc0 hc1 hc2 x0 x1 xs0 = k0_pay5 i x0 x1 (k0_pay4 x0 x1 xs0) := by
  unfold sout0_F_0
  rw [View.read_writes_eq_canon _ _ _ (scover0_F_0 c i arg2 harg2 arg3 harg3 arg4 harg4 arg5 harg5 hc0 hc1 hc2 x0 x1 xs0)]
  unfold kernelRun0_F
  dsimp only
  sl_unfold_words
  rw [View.canon_cons_unit_zero (S := S1x1024) hz2]
  simp only [readCov_cons_unit_zero (S := S1x1024) _ hz2, View.readCov_unit_zero (S := S1x1024) _ hz2, View.readAt_eq_ld,
    harg2.read_unread, harg3.read_unread, harg5.read_unread, View.ld_unit_zero (S := S1024x128) hz2, View.ld_unit_zero (S := S1x1024) hz2]

/-- and the output entry is the sum of that row. -/
theorem output_F (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1x1 .f32) (harg4 : arg4.IsWhole) (arg5 : Memref sig .tc .vmem S1x1024 .f32) (harg5 : arg5.IsWhole) (hc0 : ¬cond0_0 i) (hc1 : cond0_1 i) (hc2 : cond0_2 i)
    (x0 : Vec F S1024x128 .bf16) (x1 : Vec F S1024x128 .bf16) (xs0 : Vec F S1x1024 .f32) :
    out0_F_2 c i arg2 harg2 arg3 harg3 arg4 harg4 arg5 harg5 hc0 hc1 hc2 x0 x1 xs0 = k0_pay6 (k0_pay5 i x0 x1 (k0_pay4 x0 x1 xs0)) := by
  unfold out0_F_2
  rw [View.read_writes_eq_canon _ _ _ (cover0_F_2 c i arg2 harg2 arg3 harg3 arg4 harg4 arg5 harg5 hc0 hc1 hc2 x0 x1 xs0)]
  unfold kernelRun0_F
  dsimp only
  sl_unfold_words
  rw [View.canon_cons_unit_zero (S := S1x1x1) hz3]
  simp only [readCov_cons_unit_zero (S := S1x1024) _ hz2, View.readCov_unit_zero (S := S1x1024) _ hz2, View.readAt_eq_ld,
    harg2.read_unread, harg3.read_unread, harg5.read_unread, View.ld_unit_zero (S := S1024x128) hz2, View.ld_unit_zero (S := S1x1024) hz2]

end Cert.KernelIdeal.PieceValue

end
-- ==== Proof.PointValue.lean ====
/-
  What the running row of column sums and the output block hold after each grid point, from the point's two input blocks and
  (except at the first tile of a row of tiles, which resets it) the running row the point before left.

  The 64 grid points run in the order t = 8 i + j. The point is the first of its row of tiles when t = 0 mod 8, on the diagonal
  when t = 0 mod 9, and the last of its row of tiles when t = 7 mod 8.
-/
import proofs.«176809_j16544214024588_2_alg».proof.Proof.PieceValue

set_option maxRecDepth 16384
set_option maxHeartbeats 1000000

noncomputable section

namespace Cert.KernelIdeal.PointValue

open Cert.KernelIdeal Cert.KernelIdeal.Gen Cert.KernelIdeal.PieceValue Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The very first point: reset, base sums, corrections. -/
theorem rowAt_A (c : Dev nD) (t : Fin cfg0.N) (h0 : t.val % 8 = 0) (h1 : t.val % 9 = 0) (h2 : ¬t.val % 8 = 7) :
    (outsAt0 m c t.val t.isLt).2 = k0_pay5 (grid0.coords t) (iblk m c 0 t) (iblk m c 1 t) (k0_pay4 (iblk m c 0 t) (iblk m c 1 t) k0_pay1) := by
  rw [outsAt0_A m c t h0 h1 h2]
  dsimp only
  exact scratch_A c (grid0.coords t) (ms0_0 t) (hs0_0 t) (ms0_1 t) (hs0_1 t) (ms0_2 t) (hs0_2 t) scM0_0 (Memref.isWhole_whole _) ((hcond0_0 t).mpr h0) ((hcond0_1 t).mpr h1) (fun h => h2 ((hcond0_2 t).mp h)) (iblk m c 0 t) (iblk m c 1 t)

/-- A middle off-diagonal point: the row before plus the base sums. -/
theorem rowAt_B (c : Dev nD) (t : Fin cfg0.N) (h0 : ¬t.val % 8 = 0) (h1 : ¬t.val % 9 = 0) (h2 : ¬t.val % 8 = 7) :
    (outsAt0 m c t.val t.isLt).2 = k0_pay4 (iblk m c 0 t) (iblk m c 1 t) (outsAt0 m c (t.val - 1) (Nat.lt_of_le_of_lt (Nat.sub_le _ _) t.isLt)).2 := by
  rw [outsAt0_B m c t h0 h1 h2]
  dsimp only
  exact scratch_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).2

/-- A last off-diagonal point: the row before plus the base sums; -/
theorem rowAt_C (c : Dev nD) (t : Fin cfg0.N) (h0 : ¬t.val % 8 = 0) (h1 : ¬t.val % 9 = 0) (h2 : t.val % 8 = 7) :
    (outsAt0 m c t.val t.isLt).2 = k0_pay4 (iblk m c 0 t) (iblk m c 1 t) (outsAt0 m c (t.val - 1) (Nat.lt_of_le_of_lt (Nat.sub_le _ _) t.isLt)).2 := by
  rw [outsAt0_C m c t h0 h1 h2]
  dsimp only
  exact scratch_C c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).2

/-- its output entry is that row's sum. -/
theorem outAt_C (c : Dev nD) (t : Fin cfg0.N) (h0 : ¬t.val % 8 = 0) (h1 : ¬t.val % 9 = 0) (h2 : t.val % 8 = 7) :
    (outsAt0 m c t.val t.isLt).1 = k0_pay6 (k0_pay4 (iblk m c 0 t) (iblk m c 1 t) (outsAt0 m c (t.val - 1) (Nat.lt_of_le_of_lt (Nat.sub_le _ _) t.isLt)).2) := by
  rw [outsAt0_C m c t h0 h1 h2]
  dsimp only
  exact output_C c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).2

/-- A first off-diagonal point: reset, base sums. -/
theorem rowAt_D (c : Dev nD) (t : Fin cfg0.N) (h0 : t.val % 8 = 0) (h1 : ¬t.val % 9 = 0) (h2 : ¬t.val % 8 = 7) :
    (outsAt0 m c t.val t.isLt).2 = k0_pay4 (iblk m c 0 t) (iblk m c 1 t) k0_pay1 := by
  rw [outsAt0_D m c t h0 h1 h2]
  dsimp only
  exact scratch_D c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk m c 0 t) (iblk m c 1 t)

/-- A middle diagonal point: the row before plus the base sums plus the corrections. -/
theorem rowAt_E (c : Dev nD) (t : Fin cfg0.N) (h0 : ¬t.val % 8 = 0) (h1 : t.val % 9 = 0) (h2 : ¬t.val % 8 = 7) :
    (outsAt0 m c t.val t.isLt).2 = k0_pay5 (grid0.coords t) (iblk m c 0 t) (iblk m c 1 t) (k0_pay4 (iblk m c 0 t) (iblk m c 1 t) (outsAt0 m c (t.val - 1) (Nat.lt_of_le_of_lt (Nat.sub_le _ _) t.isLt)).2) := by
  rw [outsAt0_E m c t h0 h1 h2]
  dsimp only
  exact scratch_E c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2

/-- The very last point (diagonal): the row before plus the base sums plus the corrections; -/
theorem rowAt_F (c : Dev nD) (t : Fin cfg0.N) (h0 : ¬t.val % 8 = 0) (h1 : t.val % 9 = 0) (h2 : t.val % 8 = 7) :
    (outsAt0 m c t.val t.isLt).2 = k0_pay5 (grid0.coords t) (iblk m c 0 t) (iblk m c 1 t) (k0_pay4 (iblk m c 0 t) (iblk m c 1 t) (outsAt0 m c (t.val - 1) (Nat.lt_of_le_of_lt (Nat.sub_le _ _) t.isLt)).2) := by
  rw [outsAt0_F m c t h0 h1 h2]
  dsimp only
  exact scratch_F c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2

/-- its output entry is that row's sum. -/
theorem outAt_F (c : Dev nD) (t : Fin cfg0.N) (h0 : ¬t.val % 8 = 0) (h1 : t.val % 9 = 0) (h2 : t.val % 8 = 7) :
    (outsAt0 m c t.val t.isLt).1 = k0_pay6 (k0_pay5 (grid0.coords t) (iblk m c 0 t) (iblk m c 1 t) (k0_pay4 (iblk m c 0 t) (iblk m c 1 t) (outsAt0 m c (t.val - 1) (Nat.lt_of_le_of_lt (Nat.sub_le _ _) t.isLt)).2)) := by
  rw [outsAt0_F m c t h0 h1 h2]
  dsimp only
  exact output_F c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2

end Cert.KernelIdeal.PointValue

end
-- ==== Proof.LibSumTiles.lean ====
/-
  A sum over Fin (a * b) taken tile by tile: the sum over the a tiles of the sum over the b positions inside a tile, position
  (j, i) standing for the index j * b + i. What joins a reduction a kernel accumulates block by block along a grid axis with the
  one whole reduction of a reference. Stated over any commutative additive monoid, so also over the extended reals.
-/
import Mathlib.Algebra.BigOperators.Fin
import Mathlib.Logic.Equiv.Fin.Basic

namespace Cert.LibSumTiles

/-- Index j * b + i of tile j, position i. -/
def tileIx {a b : ℕ} (j : Fin a) (i : Fin b) : Fin (a * b) :=
  ⟨j.val * b + i.val, by
    have hj := j.isLt; have hi := i.isLt
    have h1 : j.val * b + i.val < (j.val + 1) * b := by rw [Nat.add_mul, Nat.one_mul]; omega
    exact lt_of_lt_of_le h1 (Nat.mul_le_mul_right b hj)⟩

@[simp] theorem tileIx_val {a b : ℕ} (j : Fin a) (i : Fin b) : (tileIx j i).val = j.val * b + i.val := rfl

/-- The whole sum is the sum of the tiles' sums. -/
theorem sum_tiles {M : Type} [AddCommMonoid M] {a b : ℕ} (f : Fin (a * b) → M) :
    ∑ q : Fin (a * b), f q = ∑ j : Fin a, ∑ i : Fin b, f (tileIx j i) := by
  rw [← Equiv.sum_comp (finProdFinEquiv (m := a) (n := b)) f, Fintype.sum_prod_type]
  refine Finset.sum_congr rfl fun j _ => Finset.sum_congr rfl fun i _ => congrArg f (Fin.ext ?_)
  simp [finProdFinEquiv, tileIx, Nat.mul_comm, Nat.add_comm]

end Cert.LibSumTiles
-- ==== Proof.LossAlgebra.lean ====
/-
  The algebra of the pairwise cosine loss, over the extended reals and over abstract arrays.

  For two arrays A, P of 8192 rows and 128 columns the cosine of row g of A and row h of P is the sum over the 128 columns of
  the products; the loss at (g, h) is one minus the cosine on the diagonal and the positive part of the cosine off it. The total
  is the sum over all pairs. A tiled evaluation cuts both row sets into 8 tiles of 1024 rows; for a tile pair it sums, column by
  column of the tile, the positive parts over the tile's rows, and on a diagonal tile adds the correction (1 - c) - max c 0 at the
  tile's own diagonal. The facts here: the correction repairs the positive part to the diagonal term on every extended real,
  infinities included; a diagonal tile's two column sums add up to the column sum of the loss; and the sum over tile pairs, columns
  and rows is the sum over all pairs.
-/
import Idealize.ShloMosaic.PureOps.Ideal.Laws
import Idealize.ShloMosaic.Lib.ValueIdx
import proofs.«176809_j16544214024588_2_alg».proof.Proof.LibSumTiles

noncomputable section

namespace Cert.LossAlgebra

open Idealize.ShloMosaic Idealize.ShloMosaic.ValueIdx

/-- The positive part plus the correction is the diagonal term: max c 0 + ((o - c) - max c 0) = o - c for every extended real c
    and every o. At c = +inf both sides are -inf (the sum of +inf and -inf is -inf), at c = -inf both are o + inf. -/
theorem pos_add_correction (o c : EReal) : max c 0 + (o - c - max c 0) = o - c := by
  induction c using EReal.rec with
  | bot =>
    rw [max_eq_right bot_le, sub_zero, zero_add]
  | coe r =>
    have hm : max (r : EReal) 0 = ((max r 0 : ℝ) : EReal) := by
      rw [← EReal.coe_zero]; exact (EReal.coe_strictMono.monotone.map_max).symm
    rw [hm]
    induction o using EReal.rec with
    | bot => simp
    | coe s =>
      rw [← EReal.coe_sub, ← EReal.coe_sub, ← EReal.coe_add]
      congr 1
      ring
    | top => simp
  | top =>
    rw [max_eq_left le_top]
    simp

/-- Row r of tile i (the tile number read modulo 8, so that every natural number names a tile). -/
def tileRow (i : ℕ) (r : Fin 1024) : Fin 8192 := ⟨1024 * (i % 8) + r.val, by have := r.isLt; omega⟩

@[simp] theorem tileRow_val (i : ℕ) (r : Fin 1024) : (tileRow i r).val = 1024 * (i % 8) + r.val := rfl

theorem tileRow_inj {i j : ℕ} {r s : Fin 1024} (hi : i < 8) (hj : j < 8) :
    tileRow i r = tileRow j s ↔ i = j ∧ r = s := by
  constructor
  · intro h
    have hv := congrArg Fin.val h
    simp only [tileRow_val] at hv
    have hr := r.isLt; have hs := s.isLt
    refine ⟨by omega, Fin.ext (by omega)⟩
  · rintro ⟨rfl, rfl⟩; rfl

variable (one : EReal) (A P : (⟨2, ![8192, 128]⟩ : Shape).Idx → EReal)

/-- The cosine of row g of A and row h of P. -/
def cosAt (g h : Fin 8192) : EReal := ∑ k : Fin 128, A (ix2 g k) * P (ix2 h k)

/-- The loss at the pair (g, h). -/
def lossAt (g h : Fin 8192) : EReal := if g = h then one - cosAt A P g h else max (cosAt A P g h) 0

/-- The loss summed over the rows of tile i, at column c of tile j. -/
def colLoss (i j : ℕ) (c : Fin 1024) : EReal := ∑ r : Fin 1024, lossAt one A P (tileRow i r) (tileRow j c)

/-- One tile row's share of the total: over the columns of a tile, over the 8 column tiles. -/
def tileTotal (i : ℕ) : EReal := ∑ c : Fin 1024, ∑ j ∈ Finset.range 8, colLoss one A P i j c

/-! ## A tile pair, from its two blocks -/

variable (x0 x1 : (⟨2, ![1024, 128]⟩ : Shape).Idx → EReal)

/-- The cosine of row r of the block x0 and row c of the block x1. -/
def tcos (r c : Fin 1024) : EReal := ∑ k : Fin 128, x0 (ix2 r k) * x1 (ix2 c k)

/-- The positive parts summed down column c. -/
def baseCol (c : Fin 1024) : EReal := ∑ r : Fin 1024, max (tcos x0 x1 r c) 0

/-- The corrections summed down column c: only the row r = c carries one. -/
def corrCol (c : Fin 1024) : EReal :=
  ∑ r : Fin 1024, if r = c then one - tcos x0 x1 r c - max (tcos x0 x1 r c) 0 else 0

/-- Blocks that are tile i of A and tile j of P have the cosines of those rows. -/
theorem tcos_eq {i j : ℕ} (h0 : ∀ r k, x0 (ix2 r k) = A (ix2 (tileRow i r) k)) (h1 : ∀ r k, x1 (ix2 r k) = P (ix2 (tileRow j r) k))
    (r c : Fin 1024) : tcos x0 x1 r c = cosAt A P (tileRow i r) (tileRow j c) := by
  unfold tcos cosAt
  exact Finset.sum_congr rfl fun k _ => by rw [h0, h1]

/-- Off the diagonal tiles the loss is the positive part, so the column sum of the loss is the base column sum. -/
theorem colLoss_off {i j : ℕ} (hi : i < 8) (hj : j < 8) (hij : i ≠ j)
    (h0 : ∀ r k, x0 (ix2 r k) = A (ix2 (tileRow i r) k)) (h1 : ∀ r k, x1 (ix2 r k) = P (ix2 (tileRow j r) k)) (c : Fin 1024) :
    baseCol x0 x1 c = colLoss one A P i j c := by
  unfold baseCol colLoss
  refine Finset.sum_congr rfl fun r _ => ?_
  unfold lossAt
  rw [if_neg (fun h => hij ((tileRow_inj hi hj).mp h).1), tcos_eq A P x0 x1 h0 h1]

/-- On a diagonal tile the base column sum and the correction column sum add up to the column sum of the loss. -/
theorem colLoss_diag {i : ℕ} (hi : i < 8)
    (h0 : ∀ r k, x0 (ix2 r k) = A (ix2 (tileRow i r) k)) (h1 : ∀ r k, x1 (ix2 r k) = P (ix2 (tileRow i r) k)) (c : Fin 1024) :
    baseCol x0 x1 c + corrCol one x0 x1 c = colLoss one A P i i c := by
  unfold baseCol corrCol colLoss
  rw [← Finset.sum_add_distrib]
  refine Finset.sum_congr rfl fun r _ => ?_
  unfold lossAt
  rw [← tcos_eq A P x0 x1 h0 h1]
  by_cases hrc : r = c
  · rw [if_pos hrc, if_pos ((tileRow_inj hi hi).mpr ⟨rfl, hrc⟩), pos_add_correction]
  · rw [if_neg hrc, if_neg (fun h => hrc ((tileRow_inj hi hi).mp h).2), add_zero]

/-! ## All pairs, tile by tile -/

/-- A tile's row as the tiled index of the sum-by-tiles lemma. -/
theorem tileRow_eq_tileIx (i : Fin 8) (r : Fin 1024) :
    tileRow i.val r = (Cert.LibSumTiles.tileIx i r : Fin (8 * 1024)) := by
  apply Fin.ext
  show 1024 * (i.val % 8) + r.val = i.val * 1024 + r.val
  have := i.isLt
  omega

/-- The sum over the 8 row tiles of their shares is the sum of the loss over all pairs. -/
theorem sum_tileTotal :
    ∑ i : Fin 8, tileTotal one A P i.val = ∑ g : Fin 8192, ∑ h : Fin 8192, lossAt one A P g h := by
  have e1 : ∀ f : Fin 8192 → EReal, ∑ g : Fin 8192, f g = ∑ i : Fin 8, ∑ r : Fin 1024, f (tileRow i.val r) := fun f => by
    rw [show (∑ g : Fin 8192, f g) = ∑ g : Fin (8 * 1024), f g from rfl, Cert.LibSumTiles.sum_tiles]
    exact Finset.sum_congr rfl fun i _ => Finset.sum_congr rfl fun r _ => by rw [tileRow_eq_tileIx]
  rw [e1]
  refine Finset.sum_congr rfl fun i _ => ?_
  unfold tileTotal colLoss
  -- the right side: rows r of tile i, then all h by tiles j and columns c
  rw [show (∑ r : Fin 1024, ∑ h : Fin 8192, lossAt one A P (tileRow i.val r) h)
      = ∑ r : Fin 1024, ∑ j : Fin 8, ∑ c : Fin 1024, lossAt one A P (tileRow i.val r) (tileRow j.val c) from
    Finset.sum_congr rfl fun r _ => e1 _]
  -- the left side: columns c, tiles j (a range), rows r
  rw [show (∑ c : Fin 1024, ∑ j ∈ Finset.range 8, ∑ r : Fin 1024, lossAt one A P (tileRow i.val r) (tileRow j c))
      = ∑ c : Fin 1024, ∑ j : Fin 8, ∑ r : Fin 1024, lossAt one A P (tileRow i.val r) (tileRow j.val c) from
    Finset.sum_congr rfl fun c _ => Finset.sum_range _]
  conv_lhs => rw [Finset.sum_comm]
  conv_rhs => rw [Finset.sum_comm]
  exact Finset.sum_congr rfl fun j _ => Finset.sum_comm

end Cert.LossAlgebra

end
-- ==== Proof.LibSmallWords.lean ====
/-
  Small nonnegative 32-bit index words.

  An index array a program builds from iota, constants and additions holds words BitVec.ofNat 32 m with m far below 2^31. Such a
  word read as a signed integer is m itself, so it is never signed-less-than zero (the test jnp's index normalisation makes before
  adding the axis length), a gather's clamp reads it back as m, two of them add without wrapping, and they are equal exactly when
  the numbers are.
-/
import Idealize.ShloMosaic.Lib.Affine
import Idealize.ShloMosaic.Lib.ValueIdx

namespace Cert.LibSmallWords

open Idealize.ShloMosaic

/-- Read as a signed integer, a word below 2^31 is its number. -/
theorem toInt_ofNat_small (m : ℕ) (h : m < 2 ^ 31) : (BitVec.ofNat 32 m).toInt = (m : Int) := by
  rw [BitVec.toInt_eq_toNat_cond, BitVec.toNat_ofNat]
  have hm : m % 2 ^ 32 = m := Nat.mod_eq_of_lt (by omega)
  rw [hm, if_pos (by omega)]

/-- So a gather reads it back as its number. -/
theorem toNat_toInt_small (m : ℕ) (h : m < 2 ^ 31) : (BitVec.ofNat 32 m).toInt.toNat = m := by
  rw [toInt_ofNat_small m h]; rfl

/-- It is not signed-less-than zero. -/
theorem not_slt_zero (m : ℕ) (h : m < 2 ^ 31) : IntOp.cmpi .slt (BitVec.ofNat 32 m) 0#32 = 0#1 := by
  apply ValueIdx.eq_zero_of_ne_one
  intro e
  have := IntOp.cmpi_slt.mp e
  rw [toInt_ofNat_small m h] at this
  simp at this
  omega

/-- Two such words add without wrapping. -/
theorem addi_ofNat (a b : ℕ) : IntOp.addi (BitVec.ofNat 32 a) (BitVec.ofNat 32 b) = BitVec.ofNat 32 (a + b) := by
  show BitVec.ofNat 32 a + BitVec.ofNat 32 b = _
  rw [BitVec.ofNat_add]

/-- They are equal words exactly when they are equal numbers. -/
theorem cmpi_eq_ofNat (a b : ℕ) (ha : a < 2 ^ 31) (hb : b < 2 ^ 31) :
    IntOp.cmpi .eq (BitVec.ofNat 32 a) (BitVec.ofNat 32 b) = 1#1 ↔ a = b := by
  rw [IntOp.cmpi_eq]
  constructor
  · intro e
    have := congrArg BitVec.toInt e
    rw [toInt_ofNat_small a ha, toInt_ofNat_small b hb] at this
    exact_mod_cast this
  · rintro rfl; rfl

end Cert.LibSmallWords
-- ==== Proof.TileValue.lean ====
/-
  What the body's stores hold, read at an index, at the ideal values.

  The body takes a block x0 of 1024 rows of the normalised anchors and a block x1 of 1024 rows of the normalised positives. Its
  matrix product contracts the 128 columns: entry (r, c) is the cosine of row r of x0 and row c of x1 (the positives' block is
  transposed first, so the contraction runs along its rows' columns). Clamped below at zero and summed down each column c this is
  added to the running row of 1024 column sums; on a diagonal tile the correction (1 - cos) - max cos 0, kept where the global row
  number equals the global column number and zero elsewhere, is summed down each column and added too; after the last tile of a row
  of tiles the running row is summed over its 1024 columns into the one entry of the output block.
-/
import proofs.«176809_j16544214024588_2_alg».proof.Proof.Gen.KernelIdeal.Skeleton
import proofs.«176809_j16544214024588_2_alg».proof.Proof.LossAlgebra
import proofs.«176809_j16544214024588_2_alg».proof.Proof.LibSmallWords
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx Cert.LossAlgebra

/-- The f32 word of the number one, as the extended real it denotes. -/
abbrev oneW : EReal := Ideal.ofBits .f32 0x3F800000#32

/-! ## The contraction's operand indices -/

theorem lhs_row (j : S1024x1024.Idx) (q : dot_S1024x128_S128x1024_S1024x1024_1_0_0_1_n_n.contr.Idx) :
    (dot_S1024x128_S128x1024_S1024x1024_1_0_0_1_n_n.lhsIdx j q 0).val = (j 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

theorem lhs_col (j : S1024x1024.Idx) (q : dot_S1024x128_S128x1024_S1024x1024_1_0_0_1_n_n.contr.Idx) :
    (dot_S1024x128_S128x1024_S1024x1024_1_0_0_1_n_n.lhsIdx j q 1).val = (q ⟨0, by decide⟩).val :=
  dot_S1024x128_S128x1024_S1024x1024_1_0_0_1_n_n.lhsIdx_val_of_single rfl j q

theorem rhs_row (j : S1024x1024.Idx) (q : dot_S1024x128_S128x1024_S1024x1024_1_0_0_1_n_n.contr.Idx) :
    (dot_S1024x128_S128x1024_S1024x1024_1_0_0_1_n_n.rhsIdx j q 0).val = (q ⟨0, by decide⟩).val :=
  dot_S1024x128_S128x1024_S1024x1024_1_0_0_1_n_n.rhsIdx_val_of_single rfl j q

theorem rhs_col (j : S1024x1024.Idx) (q : dot_S1024x128_S128x1024_S1024x1024_1_0_0_1_n_n.contr.Idx) :
    (dot_S1024x128_S128x1024_S1024x1024_1_0_0_1_n_n.rhsIdx j q 1).val = (j 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-! ## The payloads -/

/-- The zero row the first tile of a row of tiles stores. -/
theorem zeroRow_apply (c : Fin 1024) : k0_pay1 (F := Ideal) (ix2 (0 : Fin 1) c) = 0 := by
  unfold k0_pay1
  rw [shapeCast_self]
  exact Ideal.ofBits_zero_f32

/-- The matrix product: entry (r, c) is the cosine of row r of x0 and row c of x1. -/
theorem product_apply (x0 x1 : Vec Ideal S1024x128 .bf16) (r c : Fin 1024) :
    k0_pay2 (F := Ideal) x0 x1 (ix2 r c) = tcos x0 x1 r c := by
  unfold k0_pay2 tcos
  refine (Ideal.matmul_constant_zero_apply _ none _ _ _).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : shapeCast S1024x128 x0 shapeCasts_S1024x128_S1024x128
      (dot_S1024x128_S128x1024_S1024x1024_1_0_0_1_n_n.lhsIdx (ix2 r c)
        ((contrEquiv1 dot_S1024x128_S128x1024_S1024x1024_1_0_0_1_n_n 128 rfl rfl).symm k)) = x0 (ix2 r k) := by
    rw [shapeCast_self]
    refine congrArg x0 (funext fun a => Fin.ext ?_)
    match a with
    | ⟨0, _⟩ => exact lhs_row _ _
    | ⟨1, _⟩ => exact (lhs_col _ _).trans hk
  have er : transpose S128x1024 [1, 0] (shapeCast S1024x128 x1 shapeCasts_S1024x128_S1024x128) transposes_S1024x128_p1_0_S128x1024
      (dot_S1024x128_S128x1024_S1024x1024_1_0_0_1_n_n.rhsIdx (ix2 r c)
        ((contrEquiv1 dot_S1024x128_S128x1024_S1024x1024_1_0_0_1_n_n 128 rfl rfl).symm k)) = x1 (ix2 c k) := by
    refine (transpose_apply [1, 0] _ transposes_S1024x128_p1_0_S128x1024 _ (ix2 c k) (fun b => ?_)).trans ?_
    · match b with
      | ⟨0, _⟩ =>
        show k.val = _
        exact ((rhs_row (ix2 r c) _).trans hk).symm
      | ⟨1, _⟩ =>
        show c.val = _
        exact (rhs_col (ix2 r c) _).symm
    · rw [shapeCast_self]
  rw [el, er]

/-- The clamp: entry (r, c) is the positive part of that cosine. -/
theorem clamp_apply (x0 x1 : Vec Ideal S1024x128 .bf16) (r c : Fin 1024) :
    k0_pay3 (F := Ideal) x0 x1 (ix2 r c) = max (tcos x0 x1 r c) 0 := by
  unfold k0_pay3
  show max (k0_pay2 (F := Ideal) x0 x1 (ix2 r c)) (Ideal.ofBits .f32 0x00000000#32) = _
  rw [product_apply, Ideal.ofBits_zero_f32]

/-- A length-1024 vector laid as a row: entry (0, c) is entry c. -/
theorem asRow_apply {α : Type} (v : S1024.Idx → α) (c : Fin 1024) :
    shapeCast S1x1024 v shapeCasts_S1024_S1x1024 (ix2 (0 : Fin 1) c) = v (ix1 c) := by
  refine shapeCast_apply _ _ _ (ix1 c) ?_
  rw [Shape.rowMajor_val_one, Shape.rowMajor_val_two]
  show c.val = 0 * 1024 + c.val
  omega

/-- The index a sum down the rows inserts at column c, row r. -/
theorem lift_rows (c r : Fin 1024) : reduces_S1024x1024_S1024.lift (ix1 c) r = ix2 r c :=
  funext fun a => Fin.ext (by match a with | ⟨0, _⟩ => rfl | ⟨1, _⟩ => rfl)

/-- The first accumulation: the running row plus the column sums of the positive parts. -/
theorem addBase_apply (x0 x1 : Vec Ideal S1024x128 .bf16) (acc : Vec Ideal S1x1024 .f32) (c : Fin 1024) :
    k0_pay4 (F := Ideal) x0 x1 acc (ix2 (0 : Fin 1) c) = acc (ix2 (0 : Fin 1) c) + baseCol x0 x1 c := by
  unfold k0_pay4
  rw [shapeCast_self]
  show acc (ix2 (0 : Fin 1) c) + shapeCast S1x1024 _ shapeCasts_S1024_S1x1024 (ix2 (0 : Fin 1) c) = _
  rw [asRow_apply]
  refine congrArg (acc (ix2 (0 : Fin 1) c) + ·) ?_
  refine (Ideal.multiReduction_add_single _ _ reduces_S1024x1024_S1024 _ _ _).trans ?_
  unfold baseCol
  refine Finset.sum_congr rfl fun (r : Fin 1024) _ => ?_
  rw [lift_rows, clamp_apply]

/-! ## The diagonal correction -/

/-- The row-number word at (r, c): the tile's first row number plus r. -/
theorem rowWord_apply (w : BitVec 32) (r c : Fin 1024) :
    broadcastTo S1024x1024 (addi (broadcast S1024x1 w) (iota .tc S1024x1 32 [0] iota_S1024x1_d0_w32))
      broadcasts_S1024x1_S1024x1024 (ix2 r c) = IntOp.addi w (BitVec.ofNat 32 r.val) := by
  refine (broadcastTo_apply _ _ (ix2 r c) (ix2 r (0 : Fin 1)) (fun a => ?_)).trans ?_
  · match a with
    | ⟨0, _⟩ => show r.val = if (1024 : Nat) = 1 then 0 else r.val; rw [if_neg (by decide)]
    | ⟨1, _⟩ => show 0 = if (1 : Nat) = 1 then 0 else c.val; rw [if_pos rfl]
  · show IntOp.addi w (iota .tc S1024x1 32 [0] iota_S1024x1_d0_w32 (ix2 r (0 : Fin 1))) = _
    rw [iota_single_apply]

/-- The column-number word at (r, c): the tile's first column number plus c. -/
theorem colWord_apply (w : BitVec 32) (r c : Fin 1024) :
    broadcastTo S1024x1024 (addi (broadcast S1x1024 w) (iota .tc S1x1024 32 [1] iota_S1x1024_d1_w32))
      broadcasts_S1x1024_S1024x1024 (ix2 r c) = IntOp.addi w (BitVec.ofNat 32 c.val) := by
  refine (broadcastTo_apply _ _ (ix2 r c) (ix2 (0 : Fin 1) c) (fun a => ?_)).trans ?_
  · match a with
    | ⟨0, _⟩ => show 0 = if (1 : Nat) = 1 then 0 else r.val; rw [if_pos rfl]
    | ⟨1, _⟩ => show c.val = if (1024 : Nat) = 1 then 0 else c.val; rw [if_neg (by decide)]
  · show IntOp.addi w (iota .tc S1x1024 32 [1] iota_S1x1024_d1_w32 (ix2 (0 : Fin 1) c)) = _
    rw [iota_single_apply]

/-- The masked correction at (r, c), over any two arrays u, v in place of the cosine and its positive part. -/
theorem maskedCorr_apply (wr wc : BitVec 32) (u v : FVec Ideal S1024x1024 .f32) (r c : Fin 1024) :
    select (cmpi .eq
        (broadcastTo S1024x1024 (addi (broadcast S1024x1 wr) (iota .tc S1024x1 32 [0] iota_S1024x1_d0_w32)) broadcasts_S1024x1_S1024x1024)
        (broadcastTo S1024x1024 (addi (broadcast S1x1024 wc) (iota .tc S1x1024 32 [1] iota_S1x1024_d1_w32)) broadcasts_S1x1024_S1024x1024))
      (subf (subf (broadcast S1024x1024 (Scalar.ofBits (F := Ideal) .f32 0x3F800000#32)) u) v)
      (broadcast S1024x1024 (Scalar.ofBits (F := Ideal) .f32 0x00000000#32)) (ix2 r c)
    = Scalar.select (IntOp.cmpi .eq (IntOp.addi wr (BitVec.ofNat 32 r.val)) (IntOp.addi wc (BitVec.ofNat 32 c.val)))
        (oneW - u (ix2 r c) - v (ix2 r c)) 0 := by
  show Scalar.select (IntOp.cmpi .eq
      (broadcastTo S1024x1024 (addi (broadcast S1024x1 wr) (iota .tc S1024x1 32 [0] iota_S1024x1_d0_w32)) broadcasts_S1024x1_S1024x1024 (ix2 r c))
      (broadcastTo S1024x1024 (addi (broadcast S1x1024 wc) (iota .tc S1x1024 32 [1] iota_S1x1024_d1_w32)) broadcasts_S1x1024_S1024x1024 (ix2 r c)))
    (oneW - u (ix2 r c) - v (ix2 r c)) (Ideal.ofBits .f32 0x00000000#32) = _
  rw [rowWord_apply, colWord_apply, Ideal.ofBits_zero_f32]

/-- A tile's first row number as a word. -/
theorem tileWord (n : Nat) : Scalar.muli (BitVec.ofNat 32 n) 1024#32 = BitVec.ofNat 32 (n * 1024) := by
  show BitVec.ofNat 32 n * BitVec.ofNat 32 1024 = _
  rw [← BitVec.ofNat_mul]

/-- The second accumulation, on a diagonal tile: the running row plus the column sums of the corrections. -/
theorem addCorr_apply (i : grid0.Coords) (hi : (i 0).val = (i 1).val) (x0 x1 : Vec Ideal S1024x128 .bf16)
    (acc : Vec Ideal S1x1024 .f32) (c : Fin 1024) :
    k0_pay5 (F := Ideal) i x0 x1 acc (ix2 (0 : Fin 1) c) = acc (ix2 (0 : Fin 1) c) + corrCol oneW x0 x1 c := by
  have hi0 : (i 0).val < 8 := (i 0).isLt
  have hi1 : (i 1).val < 8 := (i 1).isLt
  unfold k0_pay5
  rw [shapeCast_self]
  show acc (ix2 (0 : Fin 1) c) + shapeCast S1x1024 _ shapeCasts_S1024_S1x1024 (ix2 (0 : Fin 1) c) = _
  rw [asRow_apply]
  refine congrArg (acc (ix2 (0 : Fin 1) c) + ·) ?_
  refine (Ideal.multiReduction_add_single _ _ reduces_S1024x1024_S1024 _ _ _).trans ?_
  unfold corrCol
  refine Finset.sum_congr rfl fun (r : Fin 1024) _ => ?_
  rw [lift_rows]
  refine (maskedCorr_apply _ _ _ _ r c).trans ?_
  rw [product_apply, clamp_apply, tileWord, tileWord, Cert.LibSmallWords.addi_ofNat, Cert.LibSmallWords.addi_ofNat]
  have hr := r.isLt
  have hc := c.isLt
  by_cases hrc : r = c
  · rw [if_pos hrc,
      (Cert.LibSmallWords.cmpi_eq_ofNat _ _ (by omega) (by omega)).mpr (by rw [hi, hrc]), select_one]
  · have hb : IntOp.cmpi .eq (BitVec.ofNat 32 ((i 0).val * 1024 + r.val)) (BitVec.ofNat 32 ((i 1).val * 1024 + c.val)) = 0#1 :=
      eq_zero_of_ne_one (fun e => hrc (Fin.ext (by
        have := (Cert.LibSmallWords.cmpi_eq_ofNat ((i 0).val * 1024 + r.val) ((i 1).val * 1024 + c.val) (by omega) (by omega)).mp e
        omega)))
    rw [if_neg hrc, hb, select_zero]

/-! ## The output entry -/

/-- After the last tile of a row of tiles: the one entry of the output block is the sum of the running row. -/
theorem laneSum_apply (acc : Vec Ideal S1x1024 .f32) (y : S1x1x1.Idx) :
    k0_pay6 (F := Ideal) acc y = ∑ c : Fin 1024, acc (ix2 (0 : Fin 1) c) := by
  unfold k0_pay6
  refine (shapeCast_apply _ shapeCasts_S1x1_S1x1x1 y (ix2 (0 : Fin 1) (0 : Fin 1)) ?_).trans ?_
  · rw [Shape.rowMajor_val_two, Shape.rowMajor_val_three]
    have h0 : (y 0).val < 1 := (y 0).isLt
    have h1 : (y 1).val < 1 := (y 1).isLt
    have h2 : (y 2).val < 1 := (y 2).isLt
    show 0 * 1 + 0 = ((y 0).val * 1 + (y 1).val) * 1 + (y 2).val
    omega
  refine (shapeCast_apply _ shapeCasts_S1_S1x1 _ (ix1 (0 : Fin 1)) ?_).trans ?_
  · rw [Shape.rowMajor_val_one, Shape.rowMajor_val_two]
    rfl
  refine (Ideal.multiReduction_add_single _ _ reduces_S1x1024_S1 _ _ _).trans ?_
  refine Finset.sum_congr rfl fun (c : Fin 1024) _ => congrArg acc ?_
  exact funext fun a => Fin.ext (by match a with | ⟨0, _⟩ => rfl | ⟨1, _⟩ => rfl)

end Cert.KernelIdeal.TileValue

end
-- ==== Proof.RunningRow.lean ====
/-
  The running row of column sums, point by point, at the ideal values.

  Write A for the normalised anchors and P for the normalised positives, as the region finds them. At grid point t = 8 i + j the
  first input block is tile i of A and the second is tile j of P. After the point, entry c of the running row is the loss summed
  over the 1024 rows of tile i at column c of tile j', summed over the column tiles j' = 0 .. j: an off-diagonal point adds the
  positive parts, which off the diagonal is the loss; a diagonal point adds the positive parts and the corrections, which together
  are the loss; the first point of a row of tiles starts from zero. After the last point of a row of tiles the output entry is the
  sum of the running row: the share of row tile i in the total.
-/
import proofs.«176809_j16544214024588_2_alg».proof.Proof.PointValue
import proofs.«176809_j16544214024588_2_alg».proof.Proof.TileValue

set_option maxRecDepth 16384

noncomputable section

namespace Cert.KernelIdeal.RunningRow

open Cert.KernelIdeal Cert.KernelIdeal.Gen Cert.KernelIdeal.PointValue Cert.KernelIdeal.TileValue Cert.LossAlgebra
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The normalised anchors, as the region finds them. -/
abbrev anchors (c : Dev nD) : (⟨2, ![8192, 128]⟩ : Shape).Idx → EReal := V m c main_v10
/-- The normalised positives, as the region finds them. -/
abbrev positives (c : Dev nD) : (⟨2, ![8192, 128]⟩ : Shape).Idx → EReal := V m c main_v11

/-- The index maps and the grid coordinates at point t = 8 i + j, decided over the grid: the anchors' block is tile i, the
    positives' block tile j, the output block entry i. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 3) = t.val / 8 ∧ win0_2.index t (1 : Fin 3) = 0 ∧ win0_2.index t (2 : Fin 3) = 0
    ∧ ((grid0.coords t) 0).val = t.val / 8 ∧ ((grid0.coords t) 1).val = t.val % 8 :=
  (by decide +kernel : ∀ t : Fin grid0.N, _)

theorem lt64 (t : Fin cfg0.N) : t.val < 64 := lt_of_lt_of_eq t.isLt (show cfg0.N = 64 from N_0)

/-- The first input block at point t is tile t / 8 of the anchors. -/
theorem anchorBlock_apply (c : Dev nD) (t : Fin cfg0.N) (r : Fin 1024) (k : Fin 128) :
    (iblk m c 0 t : Vec Ideal S1024x128 .bf16) (ix2 r k) = anchors m c (ix2 (tileRow (t.val / 8) r) k) := by
  obtain ⟨e0, e1, -⟩ := idx_facts t
  have hN := lt64 t
  unfold iblk
  rw [View.read_apply]
  show V m c main_v10 _ = V m c main_v10 _
  congr 1
  funext a
  apply Fin.ext
  match a with
  | ⟨0, _⟩ =>
    show win0_0.index t (0 : Fin 2) * 1024 + 1 * r.val = 1024 * (t.val / 8 % 8) + r.val
    rw [e0]; omega
  | ⟨1, _⟩ =>
    show win0_0.index t (1 : Fin 2) * 128 + 1 * k.val = k.val
    rw [e1]; omega

/-- The second input block at point t is tile t % 8 of the positives. -/
theorem positiveBlock_apply (c : Dev nD) (t : Fin cfg0.N) (r : Fin 1024) (k : Fin 128) :
    (iblk m c 1 t : Vec Ideal S1024x128 .bf16) (ix2 r k) = positives m c (ix2 (tileRow (t.val % 8) r) k) := by
  obtain ⟨-, -, e0, e1, -⟩ := idx_facts t
  unfold iblk
  rw [View.read_apply]
  show V m c main_v11 _ = V m c main_v11 _
  congr 1
  funext a
  apply Fin.ext
  match a with
  | ⟨0, _⟩ =>
    show win0_1.index t (0 : Fin 2) * 1024 + 1 * r.val = 1024 * (t.val % 8 % 8) + r.val
    rw [e0]; omega
  | ⟨1, _⟩ =>
    show win0_1.index t (1 : Fin 2) * 128 + 1 * k.val = k.val
    rw [e1]; omega

/-- An off-diagonal point adds the column sums of the loss of its tile pair. -/
theorem offStep (c : Dev nD) (t : Fin cfg0.N) (hne : t.val / 8 ≠ t.val % 8) (acc : Vec Ideal S1x1024 .f32) (cc : Fin 1024) :
    k0_pay4 (F := Ideal) (iblk m c 0 t) (iblk m c 1 t) acc (ix2 (0 : Fin 1) cc)
      = acc (ix2 (0 : Fin 1) cc) + colLoss oneW (anchors m c) (positives m c) (t.val / 8) (t.val % 8) cc := by
  have hN := lt64 t
  refine (addBase_apply (iblk m c 0 t) (iblk m c 1 t) acc cc).trans ?_
  exact congrArg (acc (ix2 (0 : Fin 1) cc) + ·)
    (colLoss_off oneW (anchors m c) (positives m c) (iblk m c 0 t) (iblk m c 1 t) (by omega) (by omega) hne
      (anchorBlock_apply m c t) (positiveBlock_apply m c t) cc)

/-- A diagonal point adds the column sums of the loss of its tile pair too: positive parts and corrections together. -/
theorem diagStep (c : Dev nD) (t : Fin cfg0.N) (heq : t.val / 8 = t.val % 8) (acc : Vec Ideal S1x1024 .f32) (cc : Fin 1024) :
    k0_pay5 (F := Ideal) (grid0.coords t) (iblk m c 0 t) (iblk m c 1 t) (k0_pay4 (F := Ideal) (iblk m c 0 t) (iblk m c 1 t) acc) (ix2 (0 : Fin 1) cc)
      = acc (ix2 (0 : Fin 1) cc) + colLoss oneW (anchors m c) (positives m c) (t.val / 8) (t.val % 8) cc := by
  have hN := lt64 t
  obtain ⟨-, -, -, -, -, -, -, g0, g1⟩ := idx_facts t
  refine (addCorr_apply (grid0.coords t) (by rw [g0, g1]; exact heq) (iblk m c 0 t) (iblk m c 1 t) _ cc).trans ?_
  rw [addBase_apply (iblk m c 0 t) (iblk m c 1 t) acc cc, add_assoc]
  refine congrArg (acc (ix2 (0 : Fin 1) cc) + ·) ?_
  have hd := colLoss_diag oneW (anchors m c) (positives m c) (iblk m c 0 t) (iblk m c 1 t) (i := t.val / 8) (by omega)
    (anchorBlock_apply m c t) (fun r k => by rw [heq]; exact positiveBlock_apply m c t r k) cc
  rw [hd]
  exact congrArg (fun j => colLoss oneW (anchors m c) (positives m c) (t.val / 8) j cc) heq

/-- The running row after point n: the loss over the rows of tile n / 8, at column cc of the column tiles 0 .. n % 8. -/
def running (c : Dev nD) (n : ℕ) (cc : Fin 1024) : EReal :=
  ∑ j ∈ Finset.range (n % 8 + 1), colLoss oneW (anchors m c) (positives m c) (n / 8) j cc

/-- What the body leaves in the running row after point n is that sum: by induction on the point. -/
theorem row_eq (c : Dev nD) : ∀ (n : ℕ) (h : n < cfg0.N) (cc : Fin 1024),
    ((outsAt0 m c n h).2 : Vec Ideal S1x1024 .f32) (ix2 (0 : Fin 1) cc) = running m c n cc
  | 0, h, cc => by
    rw [rowAt_A m c ⟨0, h⟩ (show (0 : ℕ) % 8 = 0 from rfl) (show (0 : ℕ) % 9 = 0 from rfl) (show ¬(0 : ℕ) % 8 = 7 by decide)]
    refine (diagStep m c ⟨0, h⟩ (show (0 : ℕ) / 8 = 0 % 8 from rfl) _ cc).trans ?_
    rw [zeroRow_apply, zero_add]
    unfold running
    show _ = ∑ j ∈ Finset.range 1, _
    rw [Finset.sum_range_one]
    rfl
  | n + 1, h, cc => by
    have hN : n + 1 < 64 := lt_of_lt_of_eq h (show cfg0.N = 64 from N_0)
    by_cases h0 : (n + 1) % 8 = 0
    · -- the first point of a row of tiles: never on the diagonal past point 0
      have h1 : ¬(n + 1) % 9 = 0 := by omega
      have h2 : ¬(n + 1) % 8 = 7 := by omega
      rw [rowAt_D m c ⟨n + 1, h⟩ h0 h1 h2]
      refine (offStep m c ⟨n + 1, h⟩ (by show (n + 1) / 8 ≠ (n + 1) % 8; omega) _ cc).trans ?_
      rw [zeroRow_apply, zero_add]
      unfold running
      show colLoss oneW _ _ ((n + 1) / 8) ((n + 1) % 8) cc = _
      rw [h0, Finset.sum_range_one]
    · have e1 : (n + 1) / 8 = n / 8 := by omega
      have e3 : (n + 1) % 8 = n % 8 + 1 := by omega
      have close : ((outsAt0 m c n (Nat.lt_of_succ_lt h)).2 : Vec Ideal S1x1024 .f32) (ix2 (0 : Fin 1) cc)
          + colLoss oneW (anchors m c) (positives m c) ((n + 1) / 8) ((n + 1) % 8) cc = running m c (n + 1) cc := by
        rw [row_eq c n (Nat.lt_of_succ_lt h) cc]
        unfold running
        rw [e1, e3]
        exact (Finset.sum_range_succ _ (n % 8 + 1)).symm
      by_cases h1 : (n + 1) % 9 = 0
      · have heq : (n + 1) / 8 = (n + 1) % 8 := by omega
        by_cases h2 : (n + 1) % 8 = 7
        · rw [rowAt_F m c ⟨n + 1, h⟩ h0 h1 h2]
          exact (diagStep m c ⟨n + 1, h⟩ heq _ cc).trans close
        · rw [rowAt_E m c ⟨n + 1, h⟩ h0 h1 h2]
          exact (diagStep m c ⟨n + 1, h⟩ heq _ cc).trans close
      · have hne : (n + 1) / 8 ≠ (n + 1) % 8 := by omega
        by_cases h2 : (n + 1) % 8 = 7
        · rw [rowAt_C m c ⟨n + 1, h⟩ h0 h1 h2]
          exact (offStep m c ⟨n + 1, h⟩ hne _ cc).trans close
        · rw [rowAt_B m c ⟨n + 1, h⟩ h0 h1 h2]
          exact (offStep m c ⟨n + 1, h⟩ hne _ cc).trans close

/-- After the last point of a row of tiles the output entry is that row tile's share of the total. -/
theorem out_eq (c : Dev nD) (t : Fin cfg0.N) (h2 : t.val % 8 = 7) (y : S1x1x1.Idx) :
    ((outsAt0 m c t.val t.isLt).1 : Vec Ideal S1x1x1 .f32) y = tileTotal oneW (anchors m c) (positives m c) (t.val / 8) := by
  have h0 : ¬t.val % 8 = 0 := by omega
  have hrow : ∀ cc : Fin 1024, ((outsAt0 m c t.val t.isLt).2 : Vec Ideal S1x1024 .f32) (ix2 (0 : Fin 1) cc)
      = ∑ j ∈ Finset.range 8, colLoss oneW (anchors m c) (positives m c) (t.val / 8) j cc := fun cc => by
    rw [row_eq m c t.val t.isLt cc]
    unfold running
    rw [h2]
  unfold tileTotal
  by_cases h1 : t.val % 9 = 0
  · rw [outAt_F m c t h0 h1 h2]
    refine (laneSum_apply _ y).trans (Finset.sum_congr rfl fun cc _ => ?_)
    exact (congrFun (rowAt_F m c t h0 h1 h2) (ix2 (0 : Fin 1) cc)).symm.trans (hrow cc)
  · rw [outAt_C m c t h0 h1 h2]
    refine (laneSum_apply _ y).trans (Finset.sum_congr rfl fun cc _ => ?_)
    exact (congrFun (rowAt_C m c t h0 h1 h2) (ix2 (0 : Fin 1) cc)).symm.trans (hrow cc)

end Cert.KernelIdeal.RunningRow

end
-- ==== Proof.ResultArray.lean ====
/-
  The array the region writes: entry i of its 8 entries is row tile i's share of the total.

  The output block is one entry; at grid point t = 8 i + j it is entry i of the array, and the region writes it back after the
  last point of each row of tiles (t = 7 mod 8), when the block holds the sum of the running row. The 8 write-backs cover the 8
  entries.
-/
import proofs.«176809_j16544214024588_2_alg».proof.Proof.RunningRow
import Idealize.ShloMosaic.Lib.Pipeline.Value

set_option maxRecDepth 16384

noncomputable section

namespace Cert.KernelIdeal.ResultArray

open Cert.KernelIdeal Cert.KernelIdeal.Gen Cert.KernelIdeal.RunningRow Cert.KernelIdeal.TileValue Cert.LossAlgebra
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The 8 shares, as contents of the region's output array. -/
def shares (c : Dev nD) : Buf (Elt Ideal) ((c : Thread nD τ).loc main_v12) :=
  fun (y : S8x1x1.Idx) => (tileTotal oneW (anchors m c) (positives m c) (y 0).val : EReal)

/-- What a write-back point writes is its block of the shares. -/
theorem flushed_eq (c : Dev nD) (t : Fin cfg0.N) (hf : (cfg0.win 2).flush t = true) :
    (dats m 0 c).flushed 2 t = ((cfg0.win 2).blk t).view.read (Elt Ideal) (shares m c) := by
  have h7 : t.val % 8 = 7 := (flush0_2 t).mp hf
  obtain ⟨-, -, -, -, e0, -⟩ := idx_facts t
  show (cfg0.win 2).cut (grid0.coords t) ((dats m 0 c).after 2 t) = _
  rw [after0_2]
  funext y
  rw [View.read_apply]
  show ((outsAt0 m c t.val t.isLt).1 : Vec Ideal S1x1x1 .f32) y = shares m c (((cfg0.win 2).blk t).view.emb y)
  rw [out_eq m c t h7 y]
  unfold shares
  show tileTotal oneW (anchors m c) (positives m c) (t.val / 8)
    = tileTotal oneW (anchors m c) (positives m c) ((((cfg0.win 2).blk t).view.emb y) 0).val
  refine congrArg (tileTotal oneW (anchors m c) (positives m c)) ?_
  show t.val / 8 = win0_2.index t (0 : Fin 3) * 1 + 1 * (y 0).val
  have hy : (y 0).val < 1 := (y 0).isLt
  rw [e0]; omega

/-- An entry of the array is in point t's block iff each coordinate is in the block's range. -/
theorem mem_blk (t : Fin cfg0.N) (i : S8x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v12).slice (win0_2.rect t)).set ↔ _
  rw [View.set_slice_whole, Rect.mem_set_unit]
  exact Iff.rfl

/-- Entry i is written back by the last point of row tile i. -/
theorem cover (i : S8x1x1.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 1 := (i 2).isLt
  obtain ⟨t, ht⟩ : ∃ t : Fin cfg0.N, t.val = 8 * (i 0).val + 7 :=
    ⟨⟨8 * (i 0).val + 7, by rw [show cfg0.N = 64 from N_0]; omega⟩, rfl⟩
  obtain ⟨-, -, -, -, e0, e1, e2, -⟩ := idx_facts t
  refine ⟨t, (flush0_2 t).mpr (by omega), ?_⟩
  rw [mem_blk]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 1 ≤ (i 2).val ∧ (i 2).val < win0_2.index t (2 : Fin 3) * 1 + 1
    rw [e2]; omega

/-- So the array ends holding the shares. -/
theorem final (c : Dev nD) : (dats m 0 c).arrAt 2 cfg0.N = shares m c :=
  (dats m 0 c).arrAt_eq_of_cover 2 (shares m c) (flushed_eq m c) cover

end Cert.KernelIdeal.ResultArray

end
-- ==== Proof.KernelValue.lean ====
/-
  The kernel program's result, at the ideal values.

  After the region the program sums the 8 shares from zero and divides by the word of the pair count. So its result is the sum over
  the 8 row tiles of their shares, divided by that constant; its two arguments end as they began.
-/
import proofs.«176809_j16544214024588_2_alg».proof.Proof.ResultArray
import Idealize.ShloMosaic.Lib.StableHlo.Run

set_option maxRecDepth 16384

noncomputable section

namespace Cert.KernelIdeal.KernelValue

open Cert.KernelIdeal Cert.KernelIdeal.Gen Cert.KernelIdeal.RunningRow Cert.KernelIdeal.ResultArray Cert.KernelIdeal.TileValue Cert.LossAlgebra
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The program's result: the 8 shares summed from zero, divided by the word of the pair count. -/
def result (c : Dev nD) : Buf (Elt Ideal) ((c : Thread nD τ).loc main_v14) :=
  Host.divf (F := Ideal)
    (Host.reduceAdd (F := Ideal) (shares m c) (constant (F := Ideal) S_ .f32 0x00000000#32) reducesTo_S8x1x1_S_d0_1_2 h_S_)
    (constant (F := Ideal) S_ .f32 0x4C800000#32)

/-- The operations after the region compute it from the region's output array. -/
theorem tail_eq (c : Dev nD) : Pipeline.afterTail₀ cfgs (dats m) 0 (V0 m) [hostOps1] c main_v14 = result m c := by
  unfold Pipeline.afterTail₀
  show StableHlo.after hostOps1 _ (Proc.devRef .tc main_v14) = _
  after_results
  have hw : Pipeline.withArrays (cfgs 0).spec c (V0 m c) (fun w => (dats m 0 c).arrAt w (cfgs 0).N) (Proc.devRef .tc main_v12)
      = shares m c :=
    (Pipeline.withArrays_arr spec0 launch0.win.arr_inj c (V0 m c) (fun w => (dats m 0 c).arrAt w cfg0.N) 2).trans (final m c)
  rw [hw]
  rfl

/-- The run, read: the result at that value, the arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v14 (Pipeline.mem_restRefs_of main_v14 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-- The 8 entries of the output array, by their first coordinate. -/
def entryEquiv : S8x1x1.Idx ≃ Fin 8 where
  toFun y := y 0
  invFun t := ix3 t (0 : Fin 1) (0 : Fin 1)
  left_inv y := by
    funext a
    match a with
    | ⟨0, _⟩ => rfl
    | ⟨1, _⟩ => exact Fin.ext (by have h : (y 1).val < 1 := (y 1).isLt; show 0 = (y 1).val; omega)
    | ⟨2, _⟩ => exact Fin.ext (by have h : (y 2).val < 1 := (y 2).isLt; show 0 = (y 2).val; omega)
  right_inv _ := rfl

/-- The result at its one index: the sum over the 8 row tiles of their shares, from zero, divided by the word of the pair count. -/
theorem result_apply (c : Dev nD) (i : S_.Idx) :
    (result m c : S_.Idx → EReal) i
      = Ideal.div (0 + ∑ t : Fin 8, tileTotal oneW (anchors m c) (positives m c) t.val) (Ideal.ofBits .f32 0x4C800000#32) := by
  have hsum : Host.reduceAdd (F := Ideal) (shares m c) (constant (F := Ideal) S_ .f32 0x00000000#32) reducesTo_S8x1x1_S_d0_1_2 h_S_ i
      = Ideal.ofBits .f32 0x00000000#32
        + ∑ y : S8x1x1.Idx, (tileTotal oneW (anchors m c) (positives m c) (y 0).val : EReal) := by
    simp only [Host.reduceAdd, Ideal.hostReduceAdd_def]
    exact Ideal.hostReduceAdd_total reducesTo_S8x1x1_S_d0_1_2 (fun b => b.elim0) _ _ i
  show Ideal.div (Host.reduceAdd (F := Ideal) (shares m c) (constant (F := Ideal) S_ .f32 0x00000000#32) reducesTo_S8x1x1_S_d0_1_2 h_S_ i)
      (Ideal.ofBits .f32 0x4C800000#32) = _
  rw [hsum, Ideal.ofBits_zero_f32]
  refine congrArg (fun s => Ideal.div (0 + s) (Ideal.ofBits .f32 0x4C800000#32)) ?_
  exact Fintype.sum_equiv entryEquiv _ _ (fun y => rfl)

end Cert.KernelIdeal.KernelValue

end
-- ==== Proof.RefSide.lean ====
/-
  The reference's result, read at the ideal values.

  The reference normalises the anchors and the positives (each row divided by the larger of its norm and a small constant), forms
  all 8192 x 8192 cosines by one matrix product with the transposed positives, selects one minus the cosine on the diagonal (where
  the row number equals the column number) and the positive part of the cosine elsewhere, sums everything from zero, and divides
  by the number of pairs. So its result is the sum of the loss over all pairs, divided by that constant.
-/
import proofs.«176809_j16544214024588_2_alg».proof.Proof.Gen.ReferenceIdeal.Run
import proofs.«176809_j16544214024588_2_alg».proof.Proof.Gen.ReferenceIdeal.Read
import proofs.«176809_j16544214024588_2_alg».proof.Proof.LossAlgebra
import proofs.«176809_j16544214024588_2_alg».proof.Proof.LibSmallWords

noncomputable section

namespace Cert.ReferenceIdeal.RefValue

open Cert.ReferenceIdeal Cert.ReferenceIdeal.Read Cert.LossAlgebra Idealize.ShloMosaic Idealize.ShloMosaic.ValueIdx

/-- The f32 word of the number one, as the extended real it denotes. -/
abbrev oneW : EReal := Ideal.ofBits .f32 0x3F800000#32

/-- The normalised anchors (from the second argument). -/
abbrev anchors (x1 : (⟨S8192x128, .f32⟩ : BufTy).Contents (Elt Ideal)) : (⟨2, ![8192, 128]⟩ : Shape).Idx → EReal :=
  val_main_v4 (F := Ideal) x1
/-- The normalised positives (from the first argument). -/
abbrev positives (x0 : (⟨S8192x128, .f32⟩ : BufTy).Contents (Elt Ideal)) : (⟨2, ![8192, 128]⟩ : Shape).Idx → EReal :=
  val_main_v9 (F := Ideal) x0

/-- The matrix product at (g, h) is the cosine of anchor row g and positive row h. -/
theorem product_apply (x0 x1 : (⟨S8192x128, .f32⟩ : BufTy).Contents (Elt Ideal)) (g h : Fin 8192) :
    val_main_v11 (F := Ideal) x0 x1 (ix2 g h) = cosAt (anchors x1) (positives x0) g h := by
  rw [val_main_v11_apply]
  unfold cosAt
  refine Finset.sum_congr rfl fun k _ => ?_
  rw [val_main_v10_apply]
  have el : lidx_main_v11 (ix2 g h) k = ix2 g k := funext fun a => Fin.ext (by match a with | ⟨0, _⟩ => rfl | ⟨1, _⟩ => rfl)
  have er : idx_main_v10 (ridx_main_v11 (ix2 g h) k) = ix2 h k := funext fun a => Fin.ext (by match a with | ⟨0, _⟩ => rfl | ⟨1, _⟩ => rfl)
  rw [el, er]

/-- The selected term at (g, h) is the loss there. -/
theorem loss_apply (x0 x1 : (⟨S8192x128, .f32⟩ : BufTy).Contents (Elt Ideal)) (g h : Fin 8192) :
    val_main_v21 (F := Ideal) x0 x1 (ix2 g h) = lossAt oneW (anchors x1) (positives x0) g h := by
  rw [val_main_v21_apply, val_main_v16_apply, val_main_v15_apply, val_main_v12_apply, val_main_v13_apply, val_main_v14_apply,
    val_main_c_apply, val_main_v18_apply, val_main_v17_apply, val_main_cst_1_apply, val_main_v20_apply, val_main_v19_apply,
    val_main_cst_2_apply, product_apply]
  show Scalar.select (IntOp.cmpi .eq (IntOp.addi (BitVec.ofNat 32 g.val) 0#32) (BitVec.ofNat 32 h.val))
      (oneW - cosAt (anchors x1) (positives x0) g h)
      (max (cosAt (anchors x1) (positives x0) g h) (Ideal.ofBits .f32 0x00000000#32)) = _
  have hw : IntOp.addi (BitVec.ofNat 32 g.val) 0#32 = BitVec.ofNat 32 g.val := by
    show BitVec.ofNat 32 g.val + 0#32 = _
    rw [BitVec.add_zero]
  have h0 : g.val < 8192 := g.isLt
  have h1 : h.val < 8192 := h.isLt
  rw [hw, Ideal.ofBits_zero_f32]
  unfold lossAt
  by_cases hgh : g = h
  · rw [if_pos hgh, (Cert.LibSmallWords.cmpi_eq_ofNat _ _ (by omega) (by omega)).mpr (by rw [hgh]), select_one]
  · have hb : IntOp.cmpi .eq (BitVec.ofNat 32 g.val) (BitVec.ofNat 32 h.val) = 0#1 :=
      eq_zero_of_ne_one (fun e => hgh (Fin.ext ((Cert.LibSmallWords.cmpi_eq_ofNat g.val h.val (by omega) (by omega)).mp e)))
    rw [if_neg hgh, hb, select_zero]

/-- The result: the loss summed over all pairs, from zero, divided by the word of the pair count. -/
theorem result_apply (x0 x1 : (⟨S8192x128, .f32⟩ : BufTy).Contents (Elt Ideal)) (i : S_.Idx) :
    val_main_v23 (F := Ideal) x0 x1 i
      = Ideal.div (0 + ∑ g : Fin 8192, ∑ h : Fin 8192, lossAt oneW (anchors x1) (positives x0) g h) (Ideal.ofBits .f32 0x4C800000#32) := by
  rw [val_main_v23_apply, val_main_v22_apply, val_main_cst_3_apply, val_main_cst_4_apply]
  simp only [Ideal.hostDivf_def, Ideal.ofBits_def, Ideal.ofBits_zero_f32]
  rw [show (∑ j : S8192x8192.Idx, val_main_v21 (F := Ideal) x0 x1 j)
      = ∑ g : Fin 8192, ∑ h : Fin 8192, lossAt oneW (anchors x1) (positives x0) g h from by
    rw [sum_idx2]
    exact Finset.sum_congr rfl fun g _ => Finset.sum_congr rfl fun h _ => loss_apply x0 x1 g h]

end Cert.ReferenceIdeal.RefValue

end
-- ==== Proof.Bridge.lean ====
/-
  The two programs' results are one number.

  Both programs normalise the two arguments by the same operations, so the arrays the region finds are the reference's normalised
  anchors and positives. The kernel's result is the sum over the 8 row tiles of their shares, divided by a constant; the reference's
  is the sum of the loss over all pairs, divided by the same constant; and the shares add up to the sum over all pairs (the tiled
  evaluation regroups one finite sum, which on the extended reals needs no finiteness).
-/
import proofs.«176809_j16544214024588_2_alg».proof.Proof.KernelValue
import proofs.«176809_j16544214024588_2_alg».proof.Proof.RefSide

set_option maxRecDepth 16384

noncomputable section

namespace Cert.Bridge

open Cert.KernelIdeal Cert.KernelIdeal.Gen Cert.LossAlgebra
open Idealize.ShloMosaic Idealize.ShloMosaic.TcCoe Idealize.SL.Sem Idealize.ShloMosaic.StableHlo

variable (m : (ℓ : Loc nD τ sig) → Buf (Elt Ideal) ℓ)

/-- The first array the region finds is the reference's normalised anchors of the same second argument. -/
theorem anchors_eq (c : Dev nD) :
    Cert.KernelIdeal.RunningRow.anchors m c = Cert.ReferenceIdeal.RefValue.anchors (m ((c : Thread nD τ).loc main_arg1)) := by
  show (V m c main_v10 : (⟨2, ![8192, 128]⟩ : Shape).Idx → EReal)
    = Cert.ReferenceIdeal.Read.val_main_v4 (F := Ideal) (m ((c : Thread nD τ).loc main_arg1))
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The second is the reference's normalised positives of the same first argument. -/
theorem positives_eq (c : Dev nD) :
    Cert.KernelIdeal.RunningRow.positives m c = Cert.ReferenceIdeal.RefValue.positives (m ((c : Thread nD τ).loc main_arg0)) := by
  show (V m c main_v11 : (⟨2, ![8192, 128]⟩ : Shape).Idx → EReal)
    = Cert.ReferenceIdeal.Read.val_main_v9 (F := Ideal) (m ((c : Thread nD τ).loc main_arg0))
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The kernel program's result is the reference's result of the same arguments. -/
theorem result_eq (c : Dev nD) :
    (Cert.KernelIdeal.KernelValue.result m c : Cert.KernelIdeal.S_.Idx → EReal)
      = Cert.ReferenceIdeal.Read.val_main_v23 (F := Ideal) (m ((c : Thread nD τ).loc main_arg0)) (m ((c : Thread nD τ).loc main_arg1)) := by
  funext i
  rw [Cert.KernelIdeal.KernelValue.result_apply, Cert.ReferenceIdeal.RefValue.result_apply, sum_tileTotal, anchors_eq, positives_eq]

end Cert.Bridge

end
-- ==== Proof.lean ====
/-
  The pairwise cosine loss, tiled: the kernel program against its reference, over the extended reals.

  Both programs normalise 8192 anchor rows and 8192 positive rows of 128 columns and average, over all 8192 x 8192 pairs, the loss
  that is one minus the cosine on the diagonal and the positive part of the cosine off it. The reference forms every cosine at once
  and sums. The kernel walks an 8 x 8 grid of 1024 x 1024 tiles: per tile it sums the positive parts down each column into a running
  row, on a diagonal tile it adds the correction (1 - c) - max c 0 at the diagonal, and after each row of tiles it sums the running
  row into one entry; the 8 entries are summed and divided by the number of pairs.

  The two agree because max c 0 + ((1 - c) - max c 0) = 1 - c holds for every extended real c, and because a finite sum may be
  regrouped by tiles. Neither step needs the inputs to be finite. The kernel's frames are the generated ones, the reference's frame
  is its generated run, and the idealization rewrote nothing.
-/
import proofs.«176809_j16544214024588_2_alg».proof.Defs
import proofs.«176809_j16544214024588_2_alg».proof.Proof.Gen.Kernel
import proofs.«176809_j16544214024588_2_alg».proof.Proof.Gen.Kernel.Frame
import proofs.«176809_j16544214024588_2_alg».proof.Proof.Gen.KernelIdeal
import proofs.«176809_j16544214024588_2_alg».proof.Proof.Gen.KernelIdeal.Frame
import proofs.«176809_j16544214024588_2_alg».proof.Proof.Gen.ReferenceIdeal
import proofs.«176809_j16544214024588_2_alg».proof.Proof.Gen.ReferenceIdeal.Run
import proofs.«176809_j16544214024588_2_alg».proof.Proof.Gen.ReferenceIdeal.Read
import proofs.«176809_j16544214024588_2_alg».proof.Proof.Gen.Pre_finite_inputs
import proofs.«176809_j16544214024588_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel program ends at the tiled sum, the reference at the sum over all pairs, of arguments that agree:
    one number. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
